-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x832 : Shape := ⟨2, ![16384, 832]⟩
abbrev S256x832 : Shape := ⟨2, ![256, 832]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S16384x832 : S_.BroadcastsInDim S16384x832 (![] : Fin 0 → Fin S16384x832.rank)
  reducesTo_S16384x832_S_d0_1 : S16384x832.ReducesTo [0, 1] S_
  h_S_ : 0 < S_.numel
  bcast_S_S256x832 : S_.BroadcastsInDim S256x832 (![] : Fin 0 → Fin S256x832.rank)
  reducesTo_S256x832_S_d0_1 : S256x832.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32 .f32) (main_arg5 : FVec F S1x32 .f32) (main_arg6 : FVec F S1 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16384x832 .f32) (main_arg1 : FVec F S256x832 .f32) (main_arg2 : FVec F S256 .f32) (main_arg3 : FVec F S32x256 .f32) (main_arg4 : FVec F S32 .f32) (main_arg5 : FVec F S1x32 .f32) (main_arg6 : FVec F S1 .f32) : IVec S_ 1 :=
  let main_v0 : FVec F S16384x832 .f32 := Host.absf main_arg0
  let main_cst : FVec F S_ .f32 := constant S_ .f32 0x7F800000#32
  let main_v1 : FVec F S16384x832 .f32 := broadcastInDim S16384x832 ![] bcast_S_S16384x832 main_cst
  let main_v2 : IVec S16384x832 1 := cmpf .olt main_v0 main_v1
  let main_c : IVec S_ 1 := constantI S_ 1 1#1
  let main_v3 : IVec S_ 1 := (fun x v => Host.reduce IntOp.andi x v reducesTo_S16384x832_S_d0_1 h_S_) main_v2 main_c
  let main_v4 : FVec F S256x832 .f32 := Host.absf main_arg1
  let main_cst_0 : FVec F S_ .f32 := constant S_ .f32 0x7F800000#32
  let main_v5 : FVec F S256x832 .f32 := broadcastInDim S256x832 ![] bcast_S_S256x832 main_cst_0
  let main_v6 : IVec S256x832 1 := cmpf .olt main_v4 main_v5
  let main_c_1 : IVec S_ 1 := constantI S_ 1 1#1
  let main_v7 : IVec S_ 1 := (fun x v => Host.reduce IntOp.andi x v reducesTo_S256x832_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_arg5 main_arg6 main_v13 main_v16
-- ==== Kernel.lean ====
abbrev S16384x832 : Shape := ⟨2, ![16384, 832]⟩
abbrev S256x832 : Shape := ⟨2, ![256, 832]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S832x16384 : Shape := ⟨2, ![832, 16384]⟩
abbrev S832x256 : Shape := ⟨2, ![832, 256]⟩
abbrev S1x256 : Shape := ⟨2, ![1, 256]⟩
abbrev S1x1 : Shape := ⟨2, ![1, 1]⟩
abbrev S1x16384 : Shape := ⟨2, ![1, 16384]⟩
abbrev S832x4096 : Shape := ⟨2, ![832, 4096]⟩
abbrev S1x4096 : Shape := ⟨2, ![1, 4096]⟩
abbrev S256x1 : Shape := ⟨2, ![256, 1]⟩
abbrev S32x1 : Shape := ⟨2, ![32, 1]⟩
abbrev S256x4096 : Shape := ⟨2, ![256, 4096]⟩
abbrev S32x4096 : Shape := ⟨2, ![32, 4096]⟩
abbrev S4096 : Shape := ⟨1, ![4096]⟩
abbrev S16384x1 : Shape := ⟨2, ![16384, 1]⟩

abbrev nBuf : Space → Nat
  | .hbm => 14
  | .vmem => 10
  | .smem => 0
  | _ => 0

abbrev bufTy : (tb : Table) → Fin (tcTables nBuf tb) → BufTy
  | .hbm, ⟨0, _⟩ => ⟨S16384x832, .f32⟩
  | .hbm, ⟨1, _⟩ => ⟨S256x832, .f32⟩
  | .hbm, ⟨2, _⟩ => ⟨S256, .f32⟩
  | .hbm, ⟨3, _⟩ => ⟨S32x256, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S832x16384, .f32⟩
  | .hbm, ⟨8, _⟩ => ⟨S832x256, .f32⟩
  | .hbm, ⟨9, _⟩ => ⟨S1x256, .f32⟩
  | .hbm, ⟨10, _⟩ => ⟨S1x32, .f32⟩
  | .hbm, ⟨11, _⟩ => ⟨S1x1, .f32⟩
  | .hbm, ⟨12, _⟩ => ⟨S1x16384, .f32⟩
  | .hbm, ⟨13, _⟩ => ⟨S16384x1, .f32⟩
  | .local _ .vmem, ⟨0, _⟩ => ⟨S832x4096, .f32⟩
  | .local _ .vmem, ⟨1, _⟩ => ⟨S832x4096, .f32⟩
  | .local _ .vmem, ⟨2, _⟩ => ⟨S832x256, .f32⟩
  | .local _ .vmem, ⟨3, _⟩ => ⟨S1x256, .f32⟩
  | .local _ .vmem, ⟨4, _⟩ => ⟨S32x256, .f32⟩
  | .local _ .vmem, ⟨5, _⟩ => ⟨S1x32, .f32⟩
  | .local _ .vmem, ⟨6, _⟩ => ⟨S1x32, .f32⟩
  | .local _ .vmem, ⟨7, _⟩ => ⟨S1x1, .f32⟩
  | .local _ .vmem, ⟨8, _⟩ => ⟨S1x4096, .f32⟩
  | .local _ .vmem, ⟨9, _⟩ => ⟨S1x4096, .f32⟩
  | _, _ => ⟨S16384x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S832x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S832x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S16384x832_S832x16384_1_0 : S16384x832.Transposes [1, 0] S832x16384
  transposes_S256x832_S832x256_1_0 : S256x832.Transposes [1, 0] S832x256
  shapeCasts_S256_S1x256 : S256.ShapeCasts S1x256
  shapeCasts_S32_S1x32 : S32.ShapeCasts S1x32
  shapeCasts_S1_S1x1 : S1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S1x32_p1_0_S32x1 : S1x32.Transposes [1, 0] S32x1
  inb_S832x4096_S832x4096_0_0 : ∀ a, (![0, 0] : Fin 2 → Nat) a + S832x4096.size a ≤ S832x4096.size a
  h_S832x4096 : 0 < S832x4096.numel
  shapeCasts_S832x4096_S832x4096 : S832x4096.ShapeCasts S832x4096
  bitsLt_bf16_f32 : FTy.bits .bf16 < FTy.bits .f32
  inb_S832x256_S832x256_0_0 : ∀ a, (![0, 0] : Fin 2 → Nat) a + S832x256.size a ≤ S832x256.size a
  h_S832x256 : 0 < S832x256.numel
  shapeCasts_S832x256_S832x256 : S832x256.ShapeCasts S832x256
  broadcasts_S256x1_S256x4096 : S256x1.Broadcasts S256x4096
  inb_S32x256_S32x256_0_0 : ∀ a, (![0, 0] : Fin 2 → Nat) a + S32x256.size a ≤ S32x256.size a
  h_S32x256 : 0 < S32x256.numel
  broadcasts_S32x1_S32x4096 : S32x1.Broadcasts S32x4096
  reduces_S32x4096_S4096 : S32x4096.Reduces [0] S4096
  shapeCasts_S4096_S1x4096 : S4096.ShapeCasts S1x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x4096_S1x4096_0_0 : ∀ a, (![0, 0] : Fin 2 → Nat) a + S1x4096.size a ≤ S1x4096.size a
  h_S1x4096 : 0 < S1x4096.numel
  shapeCasts_S1x16384_S16384x1 : S1x16384.ShapeCasts S16384x1
  dot_S832x256_S832x4096_S256x4096_0_0_1_1_n_n_wf : DotDims.WF S832x256 S832x4096 S256x4096 [0] [0] [1] [1] [] []
  dot_S32x256_S256x4096_S32x4096_1_0_0_1_n_n_wf : DotDims.WF S32x256 S256x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S832x4096.size a ≤ S832x16384.size a
  hwx0_0 : ∀ i : grid0.Coords, EltTy.bits .f32 = 32 ∨ (Rect.block (s := S832x16384) S832x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S832x256.size a ≤ S832x256.size a
  hwx0_1 : ∀ i : grid0.Coords, EltTy.bits .f32 = 32 ∨ (Rect.block (s := S832x256) S832x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x16384.size a
  hwx0_7 : ∀ i : grid0.Coords, EltTy.bits .f32 = 32 ∨ (Rect.block (s := S1x16384) S1x4096.size (cc0_transform_7 i) (hinb0_7 i)).WholeWords (EltTy.packing .f32)

variable [Facts₀]

def dot_S832x256_S832x4096_S256x4096_0_0_1_1_n_n : DotDims S832x256 S832x4096 S256x4096 where
  lhsContracting := [0]
  rhsContracting := [0]
  lhsNonContracting := [1]
  rhsNonContracting := [1]
  lhsBatch := []
  rhsBatch := []
  wf := dot_S832x256_S832x4096_S256x4096_0_0_1_1_n_n_wf
def dot_S32x256_S256x4096_S32x4096_1_0_0_1_n_n : DotDims S32x256 S256x4096 S32x4096 where
  lhsContracting := [1]
  rhsContracting := [0]
  lhsNonContracting := [0]
  rhsNonContracting := [1]
  lhsBatch := []
  rhsBatch := []
  wf := dot_S32x256_S256x4096_S32x4096_1_0_0_1_n_n_wf

abbrev win0_0 : Pipeline.Window sig grid0 :=
  Pipeline.Window.ofSpec (Memref.whole main_v0) S832x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S832x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x832 : Shape := ⟨2, ![16384, 832]⟩
abbrev S256x832 : Shape := ⟨2, ![256, 832]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S832x256 : Shape := ⟨2, ![832, 256]⟩
abbrev S16384x256 : Shape := ⟨2, ![16384, 256]⟩
abbrev S1x256 : Shape := ⟨2, ![1, 256]⟩
abbrev S_ : Shape := ⟨0, ![]⟩
abbrev S256x32 : Shape := ⟨2, ![256, 32]⟩
abbrev S16384x32 : Shape := ⟨2, ![16384, 32]⟩
abbrev S32x1 : Shape := ⟨2, ![32, 1]⟩
abbrev S16384x1 : Shape := ⟨2, ![16384, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x832, .f32⟩
  | .hbm, ⟨1, _⟩ => ⟨S256x832, .f32⟩
  | .hbm, ⟨2, _⟩ => ⟨S256, .f32⟩
  | .hbm, ⟨3, _⟩ => ⟨S32x256, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S832x256, .f32⟩
  | .hbm, ⟨8, _⟩ => ⟨S16384x256, .f32⟩
  | .hbm, ⟨9, _⟩ => ⟨S1x256, .f32⟩
  | .hbm, ⟨10, _⟩ => ⟨S16384x256, .f32⟩
  | .hbm, ⟨11, _⟩ => ⟨S16384x256, .f32⟩
  | .hbm, ⟨12, _⟩ => ⟨S_, .f32⟩
  | .hbm, ⟨13, _⟩ => ⟨S16384x256, .f32⟩
  | .hbm, ⟨14, _⟩ => ⟨S16384x256, .f32⟩
  | .hbm, ⟨15, _⟩ => ⟨S256x32, .f32⟩
  | .hbm, ⟨16, _⟩ => ⟨S16384x32, .f32⟩
  | .hbm, ⟨17, _⟩ => ⟨S1x32, .f32⟩
  | .hbm, ⟨18, _⟩ => ⟨S16384x32, .f32⟩
  | .hbm, ⟨19, _⟩ => ⟨S16384x32, .f32⟩
  | .hbm, ⟨20, _⟩ => ⟨S_, .f32⟩
  | .hbm, ⟨21, _⟩ => ⟨S16384x32, .f32⟩
  | .hbm, ⟨22, _⟩ => ⟨S16384x32, .f32⟩
  | .hbm, ⟨23, _⟩ => ⟨S32x1, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | _, _ => ⟨S16384x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S256x832_S832x256_1_0 : S256x832.Transposes [1, 0] S832x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S32x256_S256x32_1_0 : S32x256.Transposes [1, 0] S256x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  transposes_S1x32_S32x1_1_0 : S1x32.Transposes [1, 0] S32x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x832_S832x256_S16384x256_1_0_0_1_n_n_wf : DotDims.WF S16384x832 S832x256 S16384x256 [1] [0] [0] [1] [] []
  dot_S16384x256_S256x32_S16384x32_1_0_0_1_n_n_wf : DotDims.WF S16384x256 S256x32 S16384x32 [1] [0] [0] [1] [] []
  dot_S16384x32_S32x1_S16384x1_1_0_0_1_n_n_wf : DotDims.WF S16384x32 S32x1 S16384x1 [1] [0] [0] [1] [] []

variable [Facts₀]

def dot_S16384x832_S832x256_S16384x256_1_0_0_1_n_n : DotDims S16384x832 S832x256 S16384x256 where
  lhsContracting := [1]
  rhsContracting := [0]
  lhsNonContracting := [0]
  rhsNonContracting := [1]
  lhsBatch := []
  rhsBatch := []
  wf := dot_S16384x832_S832x256_S16384x256_1_0_0_1_n_n_wf
def dot_S16384x256_S256x32_S16384x32_1_0_0_1_n_n : DotDims S16384x256 S256x32 S16384x32 where
  lhsContracting := [1]
  rhsContracting := [0]
  lhsNonContracting := [0]
  rhsNonContracting := [1]
  lhsBatch := []
  rhsBatch := []
  wf := dot_S16384x256_S256x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.MlpSpec.lean ====
/-
  The function both programs compute: a three-layer perceptron 832 → 256 → 32 → 1 applied to each of the
  16384 rows of `x`, on the extended reals.

    hidden1 (j, k) = max (∑ i, x (j, i) · w1 (k, i) + b1 k) 0
    hidden2 (j, c) = max (∑ k, hidden1 (j, k) · w2 (c, k) + b2 c) 0
    score j        = ∑ c, hidden2 (j, c) · w3 (0, c) + b3 0

  The same numbers are also computed in a transposed arrangement, one panel of batch columns at a time, from
  the transposed inputs and weights and the biases laid out as rows (`panel`); the two arrangements differ
  only in the order of the two factors of each product, so they agree by commutativity of the product alone
  (`panel_eq_score`) — no distributivity or cancellation is used, and hence nothing about finiteness.
-/
import Idealize.ShloMosaic.PureOps.Ideal
import Idealize.ShloMosaic.Lib.ValueIdx
import Idealize.ShloMosaic.Lib.Pipeline.Value

noncomputable section

namespace Cert.Mlp

open Idealize.ShloMosaic Idealize.ShloMosaic.ValueIdx
open scoped BigOperators

/-- An `[a, b]` array of extended reals. -/
abbrev Mat (a b : Nat) : Type := (⟨2, ![a, b]⟩ : Shape).Idx → EReal
/-- An `[a]` array of extended reals. -/
abbrev Row (a : Nat) : Type := (⟨1, ![a]⟩ : Shape).Idx → EReal

/-- The first hidden layer at batch row `j`, unit `k`. -/
def hidden1 (x : Mat 16384 832) (w1 : Mat 256 832) (b1 : Row 256) (j : Fin 16384) (k : Fin 256) : EReal :=
  max (∑ i : Fin 832, x (ix2 j i) * w1 (ix2 k i) + b1 (ix1 k)) 0

/-- The second hidden layer at batch row `j`, unit `c`. -/
def hidden2 (x : Mat 16384 832) (w1 : Mat 256 832) (b1 : Row 256) (w2 : Mat 32 256) (b2 : Row 32)
    (j : Fin 16384) (c : Fin 32) : EReal :=
  max (∑ k : Fin 256, hidden1 x w1 b1 j k * w2 (ix2 c k) + b2 (ix1 c)) 0

/-- The output of the network at batch row `j`. -/
def score (x : Mat 16384 832) (w1 : Mat 256 832) (b1 : Row 256) (w2 : Mat 32 256) (b2 : Row 32)
    (w3 : Mat 1 32) (b3 : Row 1) (j : Fin 16384) : EReal :=
  ∑ c : Fin 32, hidden2 x w1 b1 w2 b2 j c * w3 (ix2 (0 : Fin 1) c) + b3 (ix1 (0 : Fin 1))

/-- The result as a `[16384, 1]` array. -/
def mlp (x : Mat 16384 832) (w1 : Mat 256 832) (b1 : Row 256) (w2 : Mat 32 256) (b2 : Row 32)
    (w3 : Mat 1 32) (b3 : Row 1) : Mat 16384 1 :=
  fun i => score x w1 b1 w2 b2 w3 b3 ⟨(i 0).val, idx2_lt0 i⟩

/-- The result laid out as one row `[1, 16384]`: entry `(0, j)` is the score of batch row `j`. -/
def mlpRow (x : Mat 16384 832) (w1 : Mat 256 832) (b1 : Row 256) (w2 : Mat 32 256) (b2 : Row 32)
    (w3 : Mat 1 32) (b3 : Row 1) : Mat 1 16384 :=
  fun i => score x w1 b1 w2 b2 w3 b3 ⟨(i 1).val, idx2_lt1 i⟩

/-- The row of scores re-laid as a column is the result array: entry `(j, 0)` of the `[16384, 1]` array and entry
    `(0, j)` of the `[1, 16384]` array sit at the same row-major position `j`. -/
theorem cast_mlpRow (x : Mat 16384 832) (w1 : Mat 256 832) (b1 : Row 256) (w2 : Mat 32 256) (b2 : Row 32)
    (w3 : Mat 1 32) (b3 : Row 1) (h : (⟨2, ![1, 16384]⟩ : Shape).ShapeCasts ⟨2, ![16384, 1]⟩) :
    shapeCast ⟨2, ![16384, 1]⟩ (mlpRow x w1 b1 w2 b2 w3 b3) h = mlp x w1 b1 w2 b2 w3 b3 := by
  funext i
  have h1 : (i 1).val = 0 := by have := idx2_lt1 i; omega
  refine (shapeCast_apply _ h i (ix2 (0 : Fin 1) (⟨(i 0).val, idx2_lt0 i⟩ : Fin 16384)) ?_).trans rfl
  rw [Shape.rowMajor_val_two, Shape.rowMajor_val_two]
  show 0 * 16384 + (i 0).val = (i 0).val * 1 + (i 1).val
  omega

/-- One column `q` of a panel of 4096 batch columns, computed in the transposed arrangement from the panel
    `xt` of the transposed input, the transposed first weight `w1t`, and the biases as rows. -/
def panel (xt : Mat 832 4096) (w1t : Mat 832 256) (b1r : Mat 1 256) (w2 : Mat 32 256) (b2r : Mat 1 32)
    (w3 : Mat 1 32) (b3r : Mat 1 1) (q : Fin 4096) : EReal :=
  ∑ c : Fin 32,
      max (∑ k : Fin 256,
              w2 (ix2 c k) * max (∑ i : Fin 832, w1t (ix2 i k) * xt (ix2 i q) + b1r (ix2 (0 : Fin 1) k)) 0
            + b2r (ix2 (0 : Fin 1) c)) 0
        * w3 (ix2 (0 : Fin 1) c)
    + b3r (ix2 (0 : Fin 1) (0 : Fin 1))

/-- A panel column is the score of the batch row it holds, when the panel's operands are the transposed and
    re-laid argument arrays: the two differ only in the order of each product's factors. -/
theorem panel_eq_score (x : Mat 16384 832) (w1 : Mat 256 832) (b1 : Row 256) (w2 : Mat 32 256) (b2 : Row 32)
    (w3 : Mat 1 32) (b3 : Row 1)
    (xt : Mat 832 4096) (w1t : Mat 832 256) (b1r : Mat 1 256) (b2r : Mat 1 32) (b3r : Mat 1 1)
    (q : Fin 4096) (j : Fin 16384)
    (hx : ∀ i : Fin 832, xt (ix2 i q) = x (ix2 j i))
    (hw1 : ∀ (i : Fin 832) (k : Fin 256), w1t (ix2 i k) = w1 (ix2 k i))
    (hb1 : ∀ k : Fin 256, b1r (ix2 (0 : Fin 1) k) = b1 (ix1 k))
    (hb2 : ∀ c : Fin 32, b2r (ix2 (0 : Fin 1) c) = b2 (ix1 c))
    (hb3 : b3r (ix2 (0 : Fin 1) (0 : Fin 1)) = b3 (ix1 (0 : Fin 1))) :
    panel xt w1t b1r w2 b2r w3 b3r q = score x w1 b1 w2 b2 w3 b3 j := by
  unfold panel score hidden2 hidden1
  rw [hb3]
  refine congrArg (· + b3 (ix1 (0 : Fin 1))) (Finset.sum_congr rfl fun c _ => ?_)
  rw [hb2]
  refine congrArg (fun s => max (s + b2 (ix1 c)) 0 * w3 (ix2 (0 : Fin 1) c)) (Finset.sum_congr rfl fun k _ => ?_)
  rw [hb1, mul_comm]
  refine congrArg (fun s => max (s + b1 (ix1 k)) 0 * w2 (ix2 c k)) (Finset.sum_congr rfl fun i _ => ?_)
  rw [hx, hw1, mul_comm]

end Cert.Mlp

end
-- ==== Proof.RefIsMlp.lean ====
/-
  The reference program's result, read one operation at a time, is the perceptron `Cert.Mlp.mlp` of its seven
  argument arrays: x @ w1ᵀ + b1, relu, · @ w2ᵀ + b2, relu, · @ w3ᵀ + b3, each matrix product a sum over the
  contracted coordinate, each bias broadcast along the batch rows.
-/
import proofs.«173947_g4870492914276_cont_8to1c4_782_24_alg».proof.Proof.Gen.ReferenceIdeal.Read
import proofs.«173947_g4870492914276_cont_8to1c4_782_24_alg».proof.Proof.MlpSpec

noncomputable section

namespace Cert.ReferenceIdeal.RefValue

open Cert.ReferenceIdeal Cert.ReferenceIdeal.Read Idealize.ShloMosaic Idealize.ShloMosaic.ValueIdx Cert.Mlp
open scoped BigOperators

/-! ## Where each operation reads its operands, by coordinates -/

/-- The last product at output row `i` reads the second hidden layer at `(i, c)` … -/
theorem lhs3 (i : S16384x1.Idx) (c : Fin 32) :
    lidx_main_v13 i c = ix2 (⟨(i 0).val, idx2_lt0 i⟩ : Fin 16384) c :=
  funext fun a => Fin.ext (by match a with | ⟨0, _⟩ => rfl | ⟨1, _⟩ => rfl)
/-- … and the transposed last weight at `(c, 0)`, which is `w3 (0, c)`. -/
theorem rhs3 (i : S16384x1.Idx) (c : Fin 32) :
    idx_main_v12 (ridx_main_v13 i c) = ix2 (0 : Fin 1) c :=
  funext fun a => Fin.ext (by
    match a with
    | ⟨0, _⟩ => show (i 1).val = 0; have := idx2_lt1 i; omega
    | ⟨1, _⟩ => rfl)
/-- The last bias is read at its one entry. -/
theorem bias3 (i : S16384x1.Idx) : idx_main_v14 (idx_main_v15 i) = ix1 (0 : Fin 1) :=
  funext fun a => Fin.ext (by match a with | ⟨0, _⟩ => rfl)

/-- The second product at `(j, c)` reads the first hidden layer at `(j, k)` … -/
theorem lhs2 (j : Fin 16384) (c : Fin 32) (k : Fin 256) : lidx_main_v7 (ix2 j c) k = ix2 j k :=
  funext fun a => Fin.ext (by match a with | ⟨0, _⟩ => rfl | ⟨1, _⟩ => rfl)
/-- … and the transposed second weight at `(k, c)`, which is `w2 (c, k)`. -/
theorem rhs2 (j : Fin 16384) (c : Fin 32) (k : Fin 256) : idx_main_v6 (ridx_main_v7 (ix2 j c) k) = ix2 c k :=
  funext fun a => Fin.ext (by match a with | ⟨0, _⟩ => rfl | ⟨1, _⟩ => rfl)
/-- The second bias, broadcast along the rows, is read at `c`. -/
theorem bias2 (j : Fin 16384) (c : Fin 32) : idx_main_v8 (idx_main_v9 (ix2 j c)) = ix1 c :=
  funext fun a => Fin.ext (by match a with | ⟨0, _⟩ => rfl)

/-- The first product at `(j, k)` reads the input at `(j, i)` … -/
theorem lhs1 (j : Fin 16384) (k : Fin 256) (i : Fin 832) : lidx_main_v1 (ix2 j k) i = ix2 j i :=
  funext fun a => Fin.ext (by match a with | ⟨0, _⟩ => rfl | ⟨1, _⟩ => rfl)
/-- … and the transposed first weight at `(i, k)`, which is `w1 (k, i)`. -/
theorem rhs1 (j : Fin 16384) (k : Fin 256) (i : Fin 832) : idx_main_v0 (ridx_main_v1 (ix2 j k) i) = ix2 k i :=
  funext fun a => Fin.ext (by match a with | ⟨0, _⟩ => rfl | ⟨1, _⟩ => rfl)
/-- The first bias, broadcast along the rows, is read at `k`. -/
theorem bias1 (j : Fin 16384) (k : Fin 256) : idx_main_v2 (idx_main_v3 (ix2 j k)) = ix1 k :=
  funext fun a => Fin.ext (by match a with | ⟨0, _⟩ => rfl)

/-! ## The reference is the perceptron -/

/-- The reference's last stage, as a whole array, is `mlp` of the arguments. -/
theorem ref_eq (x0 : (⟨S16384x832, .f32⟩ : BufTy).Contents (Elt Ideal)) (x1 : (⟨S256x832, .f32⟩ : BufTy).Contents (Elt Ideal))
    (x2 : (⟨S256, .f32⟩ : BufTy).Contents (Elt Ideal)) (x3 : (⟨S32x256, .f32⟩ : BufTy).Contents (Elt Ideal))
    (x4 : (⟨S32, .f32⟩ : BufTy).Contents (Elt Ideal)) (x5 : (⟨S1x32, .f32⟩ : BufTy).Contents (Elt Ideal))
    (x6 : (⟨S1, .f32⟩ : BufTy).Contents (Elt Ideal)) :
    val_main_v16 (F := Ideal) x0 x1 x2 x3 x4 x5 x6 = mlp x0 x1 x2 x3 x4 x5 x6 := by
  funext i
  simp only [val_main_v16_apply, val_main_v13_apply, val_main_v15_apply, val_main_v14_apply, val_main_v12_apply,
    val_main_v11_apply, val_main_v10_apply, val_main_v9_apply, val_main_v8_apply, val_main_v7_apply,
    val_main_v6_apply, val_main_v5_apply, val_main_v4_apply, val_main_v3_apply, val_main_v2_apply,
    val_main_v1_apply, val_main_v0_apply, val_main_call0_v0_apply, val_main_call0_cst_apply,
    val_main_call1_v0_apply, val_main_call1_cst_apply,
    lhs3, rhs3, bias3, lhs2, rhs2, bias2, lhs1, rhs1, bias1,
    Ideal.addf_def, Ideal.maximumf_def, Ideal.ofBits_def, Ideal.ofBits_zero_f32,
    mlp, score, hidden2, hidden1]

end Cert.ReferenceIdeal.RefValue

end
-- ==== Proof.LibRowContraction.lean ====
/-
  A matrix product that contracts the ROW axis of both operands: for a left operand of shape [K, M] and a
  right operand of shape [K, N], the [M, N] array whose entry (i, j) is the sum over k of left (k, i) times
  right (k, j) — the product of the left operand's transpose with the right operand, computed without forming
  the transpose. Read at an entry on the extended reals, into a zero accumulator.
-/
import Idealize.ShloMosaic.Lib.ValueIdx
import Idealize.ShloMosaic.PureOps.Ideal.Laws

noncomputable section

namespace Cert.RowContraction

open Idealize.ShloMosaic Idealize.ShloMosaic.ValueIdx
open scoped BigOperators

/-- The dimension numbers of that product: axis 0 of each operand is contracted, axis 1 of each is kept, no
    batch axis. -/
def rowDims (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product into the zero accumulator, read at `(i, j)`: the sum over the shared row coordinate `k` of
    `lhs (k, i) * rhs (k, j)`. `D` is any record of those dimension numbers. -/
theorem matmul_rows_apply {M K N : ℕ} {φ₁ φ₂ : FTy} (D : DotDims ⟨2, ![K, M]⟩ ⟨2, ![K, N]⟩ ⟨2, ![M, N]⟩)
    (hD : D = rowDims M K N) (prec : Option ContractPrecision)
    (lhs : FVec Ideal ⟨2, ![K, M]⟩ φ₁) (rhs : FVec Ideal ⟨2, ![K, N]⟩ φ₂) (i : Fin M) (j : Fin N) :
    matmul D prec lhs rhs (constant (F := Ideal) ⟨2, ![M, N]⟩ .f32 0x00000000#32) (ix2 i j)
      = ∑ k : Fin K, lhs (ix2 k i) * rhs (ix2 k j) := by
  subst hD
  simp only [matmul]
  rw [Ideal.matmul_constant_zero_apply, ← Equiv.sum_comp (contrEquiv1 (rowDims M K N) K rfl rfl).symm]
  refine Finset.sum_congr rfl fun k _ => ?_
  have hk := contrEquiv1_symm_val (rowDims M K N) K rfl rfl k
  have el : (rowDims M K N).lhsIdx (ix2 i j) ((contrEquiv1 (rowDims M K N) K rfl rfl).symm k) = ix2 k i :=
    funext fun a => Fin.ext (by
      match a with
      | ⟨0, _⟩ => exact ((rowDims M K N).lhsIdx_val_of_single rfl _ _).trans hk
      | ⟨1, _⟩ => rfl)
  have er : (rowDims M K N).rhsIdx (ix2 i j) ((contrEquiv1 (rowDims M K N) K rfl rfl).symm k) = ix2 k j :=
    funext fun a => Fin.ext (by
      match a with
      | ⟨0, _⟩ => exact ((rowDims M K N).rhsIdx_val_of_single rfl _ _).trans hk
      | ⟨1, _⟩ => rfl)
  rw [el, er]

end Cert.RowContraction

end
-- ==== Proof.LibColumnForms.lean ====
/-
  Small general lemmas that read, at an index written by coordinates, the layout steps a row-wise
  reduction with kept dimensions goes through: the column casts [a] → [a, 1] and [a, 1] → [a, b],
  a sum and a maximum along the lanes of a matrix, and a plain M×K by K×N matrix product into a zero
  accumulator. All are stated over variables of literal-rank shapes and `Fin` coordinates, at the
  extended reals.
-/
import Idealize.ShloMosaic.Lib.ValueLayout
import Idealize.ShloMosaic.PureOps.Ideal.Laws

noncomputable section

namespace Cert.Attn.Pay

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- A reciprocal square root at an index is the extended reals' one of the element … -/
theorem rsqrt_apply {s : Shape} {φ : FTy} (x : FVec Ideal s φ) (i : s.Idx) : rsqrt x i = Ideal.rsqrt (x i) := rfl
/-- … and an exponential the extended reals' exponential of the element. -/
theorem exp_apply {s : Shape} {φ : FTy} (x : FVec Ideal s φ) (i : s.Idx) : exp x i = Ideal.exp (x i) := rfl

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` matrix, read at row `i`: the sum over the lanes of that row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  refine Finset.sum_congr rfl fun k _ => congrArg src ?_
  funext c
  match c with
  | ⟨0, _⟩ => rfl
  | ⟨1, _⟩ => rfl

/-- The maximum along the lanes of an `[a, b]` matrix, read at row `i`: the fold of `max` over the lanes of that
    row, from the value of the starting word. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src _ h hφ hacc (ix1 i)).trans ?_
  refine congrArg (fun f => (Finset.univ : Finset (Fin b)).fold max (Ideal.ofBits .f32 0xFF800000#32) f) ?_
  funext k
  refine congrArg src ?_
  funext c
  match c with
  | ⟨0, _⟩ => rfl
  | ⟨1, _⟩ => rfl

/-- A plain `M × K` by `K × N` matrix product into the zero accumulator, read at `(i, j)`: the sum over the
    contraction coordinate of the operands' products. `D` is any record of those dimension numbers. -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (i : Fin M) (j : Fin N) :
    matmul D prec lhs rhs (constant (F := Ideal) ⟨2, ![M, N]⟩ .f32 0x00000000#32) (ix2 i j)
      = ∑ k : Fin K, lhs (ix2 i k) * rhs (ix2 k j) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.Attn.Pay

end
-- ==== Proof.LibColumnSums.lean ====
/-
  Column sums on the extended reals: the sum over the rows of an [a, b] array, read at a column.

  The kernel's reduction over the row axis and the host's reduction over the same axis are both, at column `q`,
  the sum over the rows `r` of the entry `(r, q)` (the host's from its initial value).
-/
import Idealize.ShloMosaic.Lib.ValueIdx
import Idealize.ShloMosaic.PureOps.Ideal.Laws

namespace Cert.ColumnSums

open Idealize.ShloMosaic Idealize.ShloMosaic.ValueIdx
open scoped BigOperators

/-- The kernel's sum over the rows of an `[a, b]` array, read at column `q`. -/
theorem rowAxisSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ r : Fin a, src (ix2 r q) := by
  refine (Ideal.multiReduction_add_single src _ h hφ hacc (ix1 q)).trans ?_
  refine Finset.sum_congr rfl fun k _ => congrArg src ?_
  funext c
  match c with
  | ⟨0, _⟩ => rfl
  | ⟨1, _⟩ => rfl

/-- The host's sum over the rows of an `[a, b]` array from an initial value, read at column `q`. -/
theorem hostRowAxisSum_apply {a b : ℕ} (h' : (⟨2, ![a, b]⟩ : Shape).ReducesTo [0] ⟨1, ![b]⟩)
    (h : (⟨2, ![a, b]⟩ : Shape).Reduces [0] ⟨1, ![b]⟩) (x : (⟨2, ![a, b]⟩ : Shape).Idx → EReal) (init : EReal) (q : Fin b) :
    Ideal.hostReduceAdd h' x init (ix1 q) = init + ∑ r : Fin a, x (ix2 r q) := by
  refine (Ideal.hostReduceAdd_single h' h x init (ix1 q)).trans ?_
  refine congrArg (init + ·) (Finset.sum_congr rfl fun k _ => congrArg x ?_)
  funext c
  match c with
  | ⟨0, _⟩ => rfl
  | ⟨1, _⟩ => rfl

end Cert.ColumnSums
-- ==== Proof.PanelPayload.lean ====
/-
  What the kernel body stores, read at one entry: column `q` of the `[1, 4096]` block it writes is
  `Cert.Mlp.panel` of the blocks it loaded — three stages, each a matrix product into a zero accumulator
  (the first contracting the row axis of both operands, after a change of float format that is the identity
  on the extended reals), a bias row turned into a column and broadcast over the panel, and a maximum with
  zero; the last product is taken as a product with the weight column followed by a sum over the rows.
-/
import proofs.«173947_g4870492914276_cont_8to1c4_782_24_alg».proof.Proof.Gen.KernelIdeal.Skeleton
import proofs.«173947_g4870492914276_cont_8to1c4_782_24_alg».proof.Proof.MlpSpec
import proofs.«173947_g4870492914276_cont_8to1c4_782_24_alg».proof.Proof.LibRowContraction
import proofs.«173947_g4870492914276_cont_8to1c4_782_24_alg».proof.Proof.LibColumnForms
import proofs.«173947_g4870492914276_cont_8to1c4_782_24_alg».proof.Proof.LibColumnSums
import Idealize.ShloMosaic.Lib.Pipeline.Value
import Idealize.ShloMosaic.Lib.ValueLayout

noncomputable section

namespace Cert.KernelIdeal.Panel

open Cert.KernelIdeal Cert.KernelIdeal.Gen Idealize.ShloMosaic Idealize.ShloMosaic.ValueIdx Cert.Mlp
open scoped BigOperators

/-! ## A row turned into a column and broadcast over the panel -/

/-- The `[1, a]` row `r` transposed to a column and broadcast to `[a, b]`. -/
def colBroadcast (a b : Nat) (r : (⟨2, ![1, a]⟩ : Shape).Idx → EReal)
    (ht : (⟨2, ![1, a]⟩ : Shape).Transposes [1, 0] ⟨2, ![a, 1]⟩)
    (hb : (⟨2, ![a, 1]⟩ : Shape).Broadcasts ⟨2, ![a, b]⟩) : (⟨2, ![a, b]⟩ : Shape).Idx → EReal :=
  broadcastTo ⟨2, ![a, b]⟩ (transpose ⟨2, ![a, 1]⟩ [1, 0] r ht) hb

/-- At `(p, c)` it reads the row's entry `p`. -/
theorem colBroadcast_apply (a b : Nat) (r : (⟨2, ![1, a]⟩ : Shape).Idx → EReal)
    (ht : (⟨2, ![1, a]⟩ : Shape).Transposes [1, 0] ⟨2, ![a, 1]⟩)
    (hb : (⟨2, ![a, 1]⟩ : Shape).Broadcasts ⟨2, ![a, b]⟩) (p : Fin a) (c : Fin b) :
    colBroadcast a b r ht hb (ix2 p c) = r (ix2 (0 : Fin 1) p) := by
  unfold colBroadcast
  rw [Cert.Attn.Pay.broadcastTo_a1_ab_apply, transpose_ix2_apply]

/-! ## The three stages -/

/-- The first hidden layer of the panel: `relu (w1tᵀ · xt + b1)`, a `[256, 4096]` array. -/
def layer1 (v0 : Vec Ideal S1x256 .f32) (v8 : Vec Ideal S832x4096 .f32) (v11 : Vec Ideal S832x256 .f32) :
    FVec Ideal S256x4096 .f32 :=
  maximumf
    (addf
      (matmul dot_S832x256_S832x4096_S256x4096_0_0_1_1_n_n none
        (truncf .bf16 (shapeCast S832x256 v11 shapeCasts_S832x256_S832x256) bitsLt_bf16_f32)
        (truncf .bf16 (shapeCast S832x4096 v8 shapeCasts_S832x4096_S832x4096) bitsLt_bf16_f32)
        (constant S256x4096 .f32 0x00000000#32))
      (colBroadcast 256 4096 (shapeCast S1x256 v0 shapeCasts_S1x256_S1x256) transposes_S1x256_p1_0_S256x1
        broadcasts_S256x1_S256x4096))
    (broadcast S256x4096 (Scalar.ofBits .f32 0x00000000#32))

/-- The second hidden layer of the panel: `relu (w2 · h1 + b2)`, a `[32, 4096]` array. -/
def layer2 (h1 : FVec Ideal S256x4096 .f32) (v3 : Vec Ideal S1x32 .f32) (v19 : FVec Ideal S32x256 .f32) :
    FVec Ideal S32x4096 .f32 :=
  maximumf
    (addf
      (matmul dot_S32x256_S256x4096_S32x4096_1_0_0_1_n_n none v19 h1 (constant S32x4096 .f32 0x00000000#32))
      (colBroadcast 32 4096 (shapeCast S1x32 v3 shapeCasts_S1x32_S1x32) transposes_S1x32_p1_0_S32x1
        broadcasts_S32x1_S32x4096))
    (broadcast S32x4096 (Scalar.ofBits .f32 0x00000000#32))

/-- The output row of the panel: the rows of `h2` weighted by the column of `w3` and summed, plus `b3`. -/
def outRow (h2 : FVec Ideal S32x4096 .f32) (v6 : Vec Ideal S1x32 .f32) (v29 : Vec Ideal S1x1 .f32) :
    FVec Ideal S1x4096 .f32 :=
  addf
    (shapeCast S1x4096
      (multiReduction .add [0] S4096
        (mulf h2 (colBroadcast 32 4096 v6 transposes_S1x32_p1_0_S32x1 broadcasts_S32x1_S32x4096))
        0x00000000#32 reduces_S32x4096_S4096 (.inl rfl) rfl)
      shapeCasts_S4096_S1x4096)
    (broadcast S1x4096 (extractAt ![0, 0] v29 inpos_S1x1_p0_0))

/-- The body's stored value is the three stages composed. -/
theorem pay_eq_stages (v0 : Vec Ideal S1x256 .f32) (v3 : Vec Ideal S1x32 .f32) (v6 : Vec Ideal S1x32 .f32)
    (v8 : Vec Ideal S832x4096 .f32) (v11 : Vec Ideal S832x256 .f32) (v19 : Vec Ideal S32x256 .f32)
    (v29 : Vec Ideal S1x1 .f32) :
    k0_pay1 (F := Ideal) v0 v3 v6 v8 v11 v19 v29 = outRow (layer2 (layer1 v0 v8 v11) v3 v19) v6 v29 := rfl

/-! ## Each stage at an entry -/

theorem layer1_apply (v0 : Vec Ideal S1x256 .f32) (v8 : Vec Ideal S832x4096 .f32) (v11 : Vec Ideal S832x256 .f32)
    (k : Fin 256) (q : Fin 4096) :
    layer1 v0 v8 v11 (ix2 k q)
      = max (∑ i : Fin 832, v11 (ix2 i k) * v8 (ix2 i q) + v0 (ix2 (0 : Fin 1) k)) 0 := by
  unfold layer1
  rw [maximumf_apply, addf_apply, broadcast_apply, colBroadcast_apply,
    Cert.RowContraction.matmul_rows_apply dot_S832x256_S832x4096_S256x4096_0_0_1_1_n_n rfl]
  simp only [truncf_apply, shapeCast_self, Scalar.ofBits, Ideal.ofBits_def, Ideal.ofBits_zero_f32]

theorem layer2_apply (h1 : FVec Ideal S256x4096 .f32) (v3 : Vec Ideal S1x32 .f32) (v19 : FVec Ideal S32x256 .f32)
    (c : Fin 32) (q : Fin 4096) :
    layer2 h1 v3 v19 (ix2 c q)
      = max (∑ k : Fin 256, v19 (ix2 c k) * h1 (ix2 k q) + v3 (ix2 (0 : Fin 1) c)) 0 := by
  unfold layer2
  rw [maximumf_apply, addf_apply, broadcast_apply, colBroadcast_apply,
    Cert.Attn.Pay.matmul_plain_apply dot_S32x256_S256x4096_S32x4096_1_0_0_1_n_n rfl]
  simp only [shapeCast_self, Scalar.ofBits, Ideal.ofBits_def, Ideal.ofBits_zero_f32]

theorem outRow_apply (h2 : FVec Ideal S32x4096 .f32) (v6 : Vec Ideal S1x32 .f32) (v29 : Vec Ideal S1x1 .f32)
    (q : Fin 4096) :
    outRow h2 v6 v29 (ix2 (0 : Fin 1) q)
      = ∑ c : Fin 32, h2 (ix2 c q) * v6 (ix2 (0 : Fin 1) c) + v29 (ix2 (0 : Fin 1) (0 : Fin 1)) := by
  unfold outRow
  rw [addf_apply, broadcast_apply, shapeCast_a_1a_apply, Cert.ColumnSums.rowAxisSum_apply]
  refine congrArg₂ (· + ·) (Finset.sum_congr rfl fun c _ => ?_) ?_
  · rw [mulf_apply, colBroadcast_apply]
  · exact congrArg v29 (funext fun a => Fin.ext (by match a with | ⟨0, _⟩ => rfl | ⟨1, _⟩ => rfl))

/-! ## The stored value at an entry -/

/-- Column `q` of the stored block is `panel` of the loaded blocks. -/
theorem pay_apply (v0 : Vec Ideal S1x256 .f32) (v3 : Vec Ideal S1x32 .f32) (v6 : Vec Ideal S1x32 .f32)
    (v8 : Vec Ideal S832x4096 .f32) (v11 : Vec Ideal S832x256 .f32) (v19 : Vec Ideal S32x256 .f32)
    (v29 : Vec Ideal S1x1 .f32) (q : Fin 4096) :
    k0_pay1 (F := Ideal) v0 v3 v6 v8 v11 v19 v29 (ix2 (0 : Fin 1) q) = panel v8 v11 v0 v19 v3 v6 v29 q := by
  rw [pay_eq_stages, outRow_apply]
  unfold panel
  simp only [layer2_apply, layer1_apply]

/-- The stored value at column `q` is the score of batch row `j`, whenever the loaded blocks are the parts of
    the transposed and re-laid argument arrays that belong to that row. -/
theorem pay_eq_score (X0 : Vec Ideal S832x4096 .f32) (X1 : Vec Ideal S832x256 .f32) (X2 : Vec Ideal S1x256 .f32)
    (X3 : Vec Ideal S32x256 .f32) (X4 : Vec Ideal S1x32 .f32) (X5 : Vec Ideal S1x32 .f32) (X6 : Vec Ideal S1x1 .f32)
    (x : Mat 16384 832) (w1 : Mat 256 832) (b1 : Row 256) (w2 : Mat 32 256) (b2 : Row 32) (w3 : Mat 1 32) (b3 : Row 1)
    (q : Fin 4096) (j : Fin 16384)
    (h0 : ∀ i : Fin 832, X0 (ix2 i q) = x (ix2 j i))
    (h1 : ∀ (i : Fin 832) (k : Fin 256), X1 (ix2 i k) = w1 (ix2 k i))
    (h2 : ∀ k : Fin 256, X2 (ix2 (0 : Fin 1) k) = b1 (ix1 k))
    (h3 : X3 = w2)
    (h4 : ∀ c : Fin 32, X4 (ix2 (0 : Fin 1) c) = b2 (ix1 c))
    (h5 : X5 = w3)
    (h6 : X6 (ix2 (0 : Fin 1) (0 : Fin 1)) = b3 (ix1 (0 : Fin 1))) :
    k0_pay1 (F := Ideal) X2 X4 X5 X0 X1 X3 X6 (ix2 (0 : Fin 1) q) = score x w1 b1 w2 b2 w3 b3 j := by
  subst h3 h5
  exact (pay_apply X2 X4 X5 X0 X1 X3 X6 q).trans (panel_eq_score x w1 b1 X3 b2 X5 b3 X0 X1 X2 X4 X6 q j h0 h1 h2 h4 h6)

end Cert.KernelIdeal.Panel

end
-- ==== Proof.KernelValue.lean ====
/-
  The kernel program's result array as one function of its seven argument arrays.

  The program transposes `x` and `w1`, lays the three biases out as rows, runs the kernel over four grid
  points — point `t` reads columns 4096·t … 4096·t + 4095 of the transposed input and all of the weights, and
  writes those columns of a `[1, 16384]` row — and finally re-lays that row as the `[16384, 1]` result.
  Entry `(0, 4096·t + q)` of the row is the score of batch row `4096·t + q` (the stored value at column `q`,
  Proof/PanelPayload.lean); the four blocks tile the row; and the re-laid row is `Cert.Mlp.mlp`.
-/
import proofs.«173947_g4870492914276_cont_8to1c4_782_24_alg».proof.Proof.Gen.KernelIdeal.Frame
import proofs.«173947_g4870492914276_cont_8to1c4_782_24_alg».proof.Proof.PanelPayload
import Idealize.ShloMosaic.Lib.Pipeline.Value
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-! ## The arrays the kernel's windows stage, as the host lines before it leave them -/

theorem V_v0 (c : Dev nD) : (V m c main_v0 : S832x16384.Idx → EReal)
    = transpose S832x16384 [1, 0] (m ((c : Thread nD τ).loc main_arg0)) transposes_S16384x832_S832x16384_1_0 := by
  show StableHlo.after hostOps0 (fun b => m (c, b)) (Proc.devRef .tc main_v0) = _
  after_results <;> rfl

theorem V_v1 (c : Dev nD) : (V m c main_v1 : S832x256.Idx → EReal)
    = transpose S832x256 [1, 0] (m ((c : Thread nD τ).loc main_arg1)) transposes_S256x832_S832x256_1_0 := by
  show StableHlo.after hostOps0 (fun b => m (c, b)) (Proc.devRef .tc main_v1) = _
  after_results <;> rfl

theorem V_v2 (c : Dev nD) : (V m c main_v2 : S1x256.Idx → EReal)
    = shapeCast S1x256 (m ((c : Thread nD τ).loc main_arg2)) shapeCasts_S256_S1x256 := by
  show StableHlo.after hostOps0 (fun b => m (c, b)) (Proc.devRef .tc main_v2) = _
  after_results <;> rfl

theorem V_v3 (c : Dev nD) : (V m c main_v3 : S1x32.Idx → EReal)
    = shapeCast S1x32 (m ((c : Thread nD τ).loc main_arg4)) shapeCasts_S32_S1x32 := by
  show StableHlo.after hostOps0 (fun b => m (c, b)) (Proc.devRef .tc main_v3) = _
  after_results <;> rfl

theorem V_v4 (c : Dev nD) : (V m c main_v4 : S1x1.Idx → EReal)
    = shapeCast S1x1 (m ((c : Thread nD τ).loc main_arg6)) shapeCasts_S1_S1x1 := by
  show StableHlo.after hostOps0 (fun b => m (c, b)) (Proc.devRef .tc main_v4) = _
  after_results <;> rfl

/-! ## Which block each window stages at a grid point -/

theorem hz : (![0, 0] : Fin 2 → Nat) = fun _ => 0 := funext fun a => by fin_cases a <;> rfl

/-- Decided over the four grid points: the input panel moves with the output block along the batch axis, every
    other window stays at block zero, and the output's block number is at most 3. -/
theorem idx_facts : ∀ t : Fin cfg0.N,
    win0_0.index t (0 : Fin 2) = 0 ∧ win0_0.index t (1 : Fin 2) = win0_7.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) ≤ 3 :=
  (by decide +kernel : ∀ t : Fin grid0.N, _)

/-- Every one of the four output blocks is some grid point's. -/
theorem idx_onto : ∀ b : Fin 4, ∃ t : Fin cfg0.N, win0_7.index t = ![0, b.val] :=
  (by decide +kernel : ∀ b : Fin 4, ∃ t : Fin grid0.N, win0_7.index t = ![0, b.val])

/-- The batch row that column `q` of grid point `t`'s block holds. -/
def batchRow (t : Fin cfg0.N) (q : Fin 4096) : Fin 16384 :=
  ⟨win0_7.index t (1 : Fin 2) * 4096 + q.val, by
    have h := (idx_facts t).2.2.2.2.2.2.2.2.2.2.2.2.2.2.2
    have hq := q.isLt
    omega⟩

/-! ## The input blocks at a grid point, read off the argument arrays -/

theorem blk0 (c : Dev nD) (t : Fin cfg0.N) (q : Fin 4096) (i : Fin 832) :
    iblk m c 0 t (ix2 i q) = m ((c : Thread nD τ).loc main_arg0) (ix2 (batchRow t q) i) := by
  obtain ⟨e0, e1, -⟩ := idx_facts t
  show V m c main_v0 (((cfg0.win 0).blk t).view.emb (ix2 i q)) = _
  have he : ((cfg0.win 0).blk t).view.emb (ix2 i q) = ix2 i (batchRow t q) := by
    funext a; apply Fin.ext
    match a with
    | ⟨0, _⟩ => show win0_0.index t (0 : Fin 2) * 832 + 1 * i.val = i.val; omega
    | ⟨1, _⟩ => show win0_0.index t (1 : Fin 2) * 4096 + 1 * q.val = win0_7.index t (1 : Fin 2) * 4096 + q.val; omega
  rw [he]
  exact (congrFun (V_v0 m c) _).trans (transpose_ix2_apply _ _ _ _)

theorem blk1 (c : Dev nD) (t : Fin cfg0.N) (i : Fin 832) (k : Fin 256) :
    iblk m c 1 t (ix2 i k) = m ((c : Thread nD τ).loc main_arg1) (ix2 k i) := by
  obtain ⟨-, -, e0, e1, -⟩ := idx_facts t
  show V m c main_v1 (((cfg0.win 1).blk t).view.emb (ix2 i k)) = _
  have he : ((cfg0.win 1).blk t).view.emb (ix2 i k) = ix2 i k := by
    funext a; apply Fin.ext
    match a with
    | ⟨0, _⟩ => show win0_1.index t (0 : Fin 2) * 832 + 1 * i.val = i.val; omega
    | ⟨1, _⟩ => show win0_1.index t (1 : Fin 2) * 256 + 1 * k.val = k.val; omega
  rw [he]
  exact (congrFun (V_v1 m c) _).trans (transpose_ix2_apply _ _ _ _)

theorem blk2 (c : Dev nD) (t : Fin cfg0.N) (k : Fin 256) :
    iblk m c 2 t (ix2 (0 : Fin 1) k) = m ((c : Thread nD τ).loc main_arg2) (ix1 k) := by
  obtain ⟨-, -, -, -, e0, e1, -⟩ := idx_facts t
  show V m c main_v2 (((cfg0.win 2).blk t).view.emb (ix2 (0 : Fin 1) k)) = _
  have he : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 256 + 1 * k.val = k.val; omega
  rw [he]
  exact (congrFun (V_v2 m c) _).trans (shapeCast_a_1a_apply _ _ _ _)

theorem blk3 (c : Dev nD) (t : Fin cfg0.N) :
    (iblk m c 3 t : S32x256.Idx → EReal) = m ((c : Thread nD τ).loc main_arg3) := by
  obtain ⟨-, -, -, -, -, -, e0, e1, -⟩ := idx_facts t
  funext y
  show V m c main_arg3 (((cfg0.win 3).blk t).view.emb y) = _
  have he : ((cfg0.win 3).blk t).view.emb y = y := by
    funext a; apply Fin.ext
    match a with
    | ⟨0, _⟩ => show win0_3.index t (0 : Fin 2) * 32 + 1 * (y 0).val = (y 0).val; omega
    | ⟨1, _⟩ => show win0_3.index t (1 : Fin 2) * 256 + 1 * (y 1).val = (y 1).val; omega
  rw [he, V_main_arg3]

theorem blk4 (c : Dev nD) (t : Fin cfg0.N) (k : Fin 32) :
    iblk m c 4 t (ix2 (0 : Fin 1) k) = m ((c : Thread nD τ).loc main_arg4) (ix1 k) := by
  obtain ⟨-, -, -, -, -, -, -, -, e0, e1, -⟩ := idx_facts t
  show V m c main_v3 (((cfg0.win 4).blk t).view.emb (ix2 (0 : Fin 1) k)) = _
  have he : ((cfg0.win 4).blk t).view.emb (ix2 (0 : Fin 1) k) = ix2 (0 : Fin 1) k := by
    funext a; apply Fin.ext
    match a with
    | ⟨0, _⟩ => show win0_4.index t (0 : Fin 2) * 1 + 1 * 0 = 0; omega
    | ⟨1, _⟩ => show win0_4.index t (1 : Fin 2) * 32 + 1 * k.val = k.val; omega
  rw [he]
  exact (congrFun (V_v3 m c) _).trans (shapeCast_a_1a_apply _ _ _ _)

theorem blk5 (c : Dev nD) (t : Fin cfg0.N) :
    (iblk m c 5 t : S1x32.Idx → EReal) = m ((c : Thread nD τ).loc main_arg5) := by
  obtain ⟨-, -, -, -, -, -, -, -, -, -, e0, e1, -⟩ := idx_facts t
  funext y
  show V m c main_arg5 (((cfg0.win 5).blk t).view.emb y) = _
  have he : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 32 + 1 * (y 1).val = (y 1).val; omega
  rw [he, V_main_arg5]

theorem blk6 (c : Dev nD) (t : Fin cfg0.N) :
    iblk m c 6 t (ix2 (0 : Fin 1) (0 : Fin 1)) = m ((c : Thread nD τ).loc main_arg6) (ix1 (0 : Fin 1)) := by
  obtain ⟨-, -, -, -, -, -, -, -, -, -, -, -, e0, e1, -⟩ := idx_facts t
  show V m c main_v4 (((cfg0.win 6).blk t).view.emb (ix2 (0 : Fin 1) (0 : Fin 1))) = _
  have he : ((cfg0.win 6).blk t).view.emb (ix2 (0 : Fin 1) (0 : Fin 1)) = ix2 (0 : Fin 1) (0 : Fin 1) := by
    funext a; apply Fin.ext
    match a with
    | ⟨0, _⟩ => show win0_6.index t (0 : Fin 2) * 1 + 1 * 0 = 0; omega
    | ⟨1, _⟩ => show win0_6.index t (1 : Fin 2) * 1 + 1 * 0 = 0; omega
  rw [he]
  exact (congrFun (V_v4 m c) _).trans (shapeCast_a_1a_apply _ _ _ _)

/-! ## What a grid point writes back, and the row after the run -/

/-- The `[1, 16384]` row the kernel's output window fills: the scores of all batch rows. -/
def scoreRow (c : Dev nD) : S1x16384.Idx → EReal :=
  mlpRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What grid point `t` writes back is block `t` of that row. -/
theorem flushed_eq (c : Dev nD) (t : Fin cfg0.N) :
    (dats m 0 c).flushed 7 t = ((cfg0.win 7).blk t).view.read (Elt Ideal) (scoreRow m c) := by
  show (cfg0.win 7).cut (grid0.coords t) ((dats m 0 c).after 7 t) = _
  rw [after0_7]
  unfold out0_7
  rw [View.canon_unit_zero hz]
  simp only [View.ld_unit_zero (S := S1x256) hz, View.ld_unit_zero (S := S1x32) hz, View.ld_unit_zero (S := S832x4096) hz,
    View.ld_unit_zero (S := S832x256) hz, View.ld_unit_zero (S := S32x256) hz, View.ld_unit_zero (S := S1x1) hz]
  funext y
  have hy0 : (y 0).val = 0 := by have h : (y 0).val < 1 := (y 0).isLt; omega
  have hy1 : (y 1).val < 4096 := (y 1).isLt
  have hy : (cfg0.win 7).xinj (grid0.coords t) y = ix2 (0 : Fin 1) (⟨(y 1).val, hy1⟩ : Fin 4096) :=
    funext fun a => Fin.ext (by match a with | ⟨0, _⟩ => exact hy0 | ⟨1, _⟩ => rfl)
  show k0_pay1 (F := Ideal) (iblk m c 2 t) (iblk m c 4 t) (iblk m c 5 t) (iblk m c 0 t) (iblk m c 1 t) (iblk m c 3 t)
      (iblk m c 6 t) ((cfg0.win 7).xinj (grid0.coords t) y) = scoreRow m c (((cfg0.win 7).blk t).view.emb y)
  rw [hy]
  refine (Panel.pay_eq_score (iblk m c 0 t) (iblk m c 1 t) (iblk m c 2 t) (iblk m c 3 t) (iblk m c 4 t) (iblk m c 5 t)
    (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
    (⟨(y 1).val, hy1⟩ : Fin 4096) (batchRow t ⟨(y 1).val, hy1⟩)
    (fun i => blk0 m c t ⟨(y 1).val, hy1⟩ i) (fun i k => blk1 m c t i k) (fun k => blk2 m c t k) (blk3 m c t)
    (fun k => blk4 m c t k) (blk5 m c t) (blk6 m c t)).trans ?_
  unfold scoreRow mlpRow
  refine congrArg (score (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))) (Fin.ext ?_)
  show win0_7.index t (1 : Fin 2) * 4096 + (y 1).val = win0_7.index t (1 : Fin 2) * 4096 + 1 * (y 1).val
  omega

/-- An index of the row is in grid point `t`'s block iff each coordinate is in the block's range on its axis. -/
theorem mem_blk (t : Fin cfg0.N) (i : S1x16384.Idx) :
    i ∈ ((cfg0.win 7).blk t).view.set ↔ ∀ a : Fin 2, win0_7.index t a * S1x4096.size a ≤ (i a).val
      ∧ (i a).val < win0_7.index t a * S1x4096.size a + S1x4096.size a := by
  show i ∈ ((View.whole main_v5).slice (win0_7.rect t)).set ↔ _
  rw [View.set_slice_whole, Rect.mem_set_unit]
  exact Iff.rfl

/-- The four blocks tile the row: column `j` is in block `j / 4096`. -/
theorem cover (i : S1x16384.Idx) :
    ∃ t : Fin cfg0.N, (cfg0.win 7).flush t = true ∧ i ∈ ((cfg0.win 7).blk t).view.set := by
  have hi0 : (i 0).val < 1 := (i 0).isLt
  have hi1 : (i 1).val < 16384 := (i 1).isLt
  obtain ⟨t, ht⟩ := idx_onto ⟨(i 1).val / 4096, by omega⟩
  have q0 : win0_7.index t (0 : Fin 2) = 0 := congrFun ht 0
  have q1 : win0_7.index t (1 : Fin 2) = (i 1).val / 4096 := congrFun ht 1
  refine ⟨t, flush0_7 t, ?_⟩
  rw [mem_blk]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 4096 ≤ (i 1).val ∧ (i 1).val < win0_7.index t (1 : Fin 2) * 4096 + 4096; omega

/-- After the kernel the row holds every batch row's score. -/
theorem final (c : Dev nD) : (dats m 0 c).arrAt 7 cfg0.N = scoreRow m c :=
  (dats m 0 c).arrAt_eq_of_cover 7 (scoreRow m c) (fun t _ => flushed_eq m c t) cover

/-! ## The host line after the kernel, and the run -/

/-- The result array: the row re-laid as a column is the perceptron of the arguments. -/
theorem tail_v6 (c : Dev nD) :
    Pipeline.afterTail₀ cfgs (dats m) 0 (V0 m) [hostOps1] c main_v6
      = mlp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v5) = scoreRow m c :=
    (Pipeline.withArrays_arr spec0 launch0.win.arr_inj c _ _ 7).trans (final m c)
  exact (congrArg (fun X : S1x16384.Idx → EReal => shapeCast S16384x1 X shapeCasts_S1x16384_S16384x1) hw).trans
    (cast_mlpRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) shapeCasts_S1x16384_S16384x1)

/-- The kernel program's run: every weakly fair execution terminates with the result array at the perceptron of
    the argument arrays, and the arguments as they were. -/
theorem run : θ_run defs (onTc (τ := τ) (main (F := Ideal))) ⟨m, fun _ => 0, ρ⟩ fun r => ∀ c : Dev nD,
      r.2.mem ((c : Thread nD τ).loc main_v6) = mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KValue

end
-- ==== Proof.lean ====
/-
  A fused three-layer perceptron (832 → 256 → 32 → 1 over 16384 batch rows) against its plain reference.

  The kernel program works in the transposed arrangement: it transposes the input and the first weight, lays
  the biases out as rows, and for each panel of 4096 batch columns computes
  w3 · relu (w2 · relu (w1tᵀ · xt + b1) + b2) + b3 as a `[1, 4096]` block of a row, which the last host line
  re-lays as the `[16384, 1]` result. The reference computes relu (relu (x · w1ᵀ + b1) · w2ᵀ + b2) · w3ᵀ + b3.
  On the extended reals both are `Cert.Mlp.mlp` of the seven arguments: a change of float format is the
  identity, a matrix product into a zero accumulator and a product followed by a sum over rows are plain
  finite sums, and the two arrangements differ only in the order of the two factors of each product
  (Proof/MlpSpec.lean, `panel_eq_score`). Only commutativity of the product is used, so the precondition
  (finite inputs) is never opened.

  - Proof/MlpSpec.lean: the function, the transposed panel form, and the law joining them.
  - Proof/RefIsMlp.lean: the reference's result is that function.
  - Proof/PanelPayload.lean: the kernel body's stored value at an entry is the panel form.
  - Proof/KernelValue.lean: the blocks tile the row, the row re-laid is the function; the kernel program's run.
  The three frames are the generated ones (the reference's from its generated run); the ideal pass rewrote
  nothing, so `preserves` is trivial.
-/
import proofs.«173947_g4870492914276_cont_8to1c4_782_24_alg».proof.Defs
import proofs.«173947_g4870492914276_cont_8to1c4_782_24_alg».proof.Proof.Gen.Kernel
import proofs.«173947_g4870492914276_cont_8to1c4_782_24_alg».proof.Proof.Gen.Kernel.Frame
import proofs.«173947_g4870492914276_cont_8to1c4_782_24_alg».proof.Proof.Gen.KernelIdeal
import proofs.«173947_g4870492914276_cont_8to1c4_782_24_alg».proof.Proof.Gen.KernelIdeal.Frame
import proofs.«173947_g4870492914276_cont_8to1c4_782_24_alg».proof.Proof.Gen.ReferenceIdeal
import proofs.«173947_g4870492914276_cont_8to1c4_782_24_alg».proof.Proof.Gen.Pre_finite_inputs
import proofs.«173947_g4870492914276_cont_8to1c4_782_24_alg».proof.Proof.Gen.ReferenceIdeal.Run
import proofs.«173947_g4870492914276_cont_8to1c4_782_24_alg».proof.Proof.Gen.ReferenceIdeal.Read
import proofs.«173947_g4870492914276_cont_8to1c4_782_24_alg».proof.Proof.RefIsMlp
import proofs.«173947_g4870492914276_cont_8to1c4_782_24_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at `Cert.Mlp.mlp` of the arguments, which agree. -/
theorem algebraic : Cert.algebraic_KernelIdeal_ReferenceIdeal := by
  intro m ρ m' ρ' _ hagree
  refine ⟨fun c => Cert.Mlp.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
